-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x24x4096 : Shape := ⟨3, ![256, 24, 4096]⟩
abbrev S1 : Shape := ⟨1, ![1]⟩
abbrev S_ : Shape := ⟨0, ![]⟩

class Facts : Prop where
  bcast_S_S256x24x4096 : S_.BroadcastsInDim S256x24x4096 (![] : Fin 0 → Fin S256x24x4096.rank)
  reducesTo_S256x24x4096_S_d0_1_2 : S256x24x4096.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S256x24x4096 .f32) (main_arg1 : FVec F S256x24x4096 .f32) (main_arg2 : FVec F S1 .f32) : IVec S_ 1 :=
  let main_v0 : FVec F S256x24x4096 .f32 := Host.absf main_arg0
  let main_cst : FVec F S_ .f32 := constant S_ .f32 0x7F800000#32
  let main_v1 : FVec F S256x24x4096 .f32 := broadcastInDim S256x24x4096 ![] bcast_S_S256x24x4096 main_cst
  let main_v2 : IVec S256x24x4096 1 := cmpf .olt main_v0 main_v1
  let main_c : IVec S_ 1 := constantI S_ 1 1#1
  let main_v3 : IVec S_ 1 := (fun x v => Host.reduce IntOp.andi x v reducesTo_S256x24x4096_S_d0_1_2 h_S_) main_v2 main_c
  let main_v4 : FVec F S256x24x4096 .f32 := Host.absf main_arg1
  let main_cst_0 : FVec F S_ .f32 := constant S_ .f32 0x7F800000#32
  let main_v5 : FVec F S256x24x4096 .f32 := broadcastInDim S256x24x4096 ![] bcast_S_S256x24x4096 main_cst_0
  let main_v6 : IVec S256x24x4096 1 := cmpf .olt main_v4 main_v5
  let main_c_1 : IVec S_ 1 := constantI S_ 1 1#1
  let main_v7 : IVec S_ 1 := (fun x v => Host.reduce IntOp.andi x v reducesTo_S256x24x4096_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S256x24x4096 : Shape := ⟨3, ![256, 24, 4096]⟩
abbrev S1 : Shape := ⟨1, ![1]⟩
abbrev S1x256 : Shape := ⟨2, ![1, 256]⟩
abbrev S128x24x512 : Shape := ⟨3, ![128, 24, 512]⟩
abbrev S1x128 : Shape := ⟨2, ![1, 128]⟩
abbrev S128x512 : Shape := ⟨2, ![128, 512]⟩
abbrev S128 : Shape := ⟨1, ![128]⟩
abbrev S256 : Shape := ⟨1, ![256]⟩
abbrev S_ : Shape := ⟨0, ![]⟩

abbrev nBuf : Space → Nat
  | .hbm => 36
  | .vmem => 7
  | .smem => 0
  | _ => 0

abbrev bufTy : (tb : Table) → Fin (tcTables nBuf tb) → BufTy
  | .hbm, ⟨0, _⟩ => ⟨S256x24x4096, .f32⟩
  | .hbm, ⟨1, _⟩ => ⟨S256x24x4096, .f32⟩
  | .hbm, ⟨2, _⟩ => ⟨S1, .f32⟩
  | .hbm, ⟨3, _⟩ => ⟨S1x256, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S128x24x512, .f32⟩
  | .local _ .vmem, ⟨1, _⟩ => ⟨S128x24x512, .f32⟩
  | .local _ .vmem, ⟨2, _⟩ => ⟨S128x24x512, .f32⟩
  | .local _ .vmem, ⟨3, _⟩ => ⟨S128x24x512, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S256x24x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x24x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x24x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x24x512_S128x24x512_0_0_0 : ∀ a, (![0, 0, 0] : Fin 3 → Nat) a + S128x24x512.size a ≤ S128x24x512.size a
  h_S128x24x512 : 0 < S128x24x512.numel
  natLt_1_32 : 1 < 32
  reduces_S128x24x512_S128x512 : S128x24x512.Reduces [1] S128x512
  reduces_S128x512_S128 : S128x512.Reduces [1] S128
  shapeCasts_S128_S1x128 : S128.ShapeCasts S1x128
  shapeCasts_S1x256_S256 : S1x256.ShapeCasts S256
  shapeCasts_S1_S_ : S1.ShapeCasts S_
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x24x512.size a ≤ S256x24x4096.size a
  hwx0_0 : ∀ i : grid0.Coords, EltTy.bits .f32 = 32 ∨ (Rect.block (s := S256x24x4096) S128x24x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x24x512.size a ≤ S256x24x4096.size a
  hwx0_1 : ∀ i : grid0.Coords, EltTy.bits .f32 = 32 ∨ (Rect.block (s := S256x24x4096) S128x24x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)

variable [Facts₀]

abbrev win0_0 : Pipeline.Window sig grid0 :=
  Pipeline.Window.ofSpec (Memref.whole main_arg0) S128x24x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x24x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x24x4096 : Shape := ⟨3, ![256, 24, 4096]⟩
abbrev S1 : Shape := ⟨1, ![1]⟩
abbrev S_ : Shape := ⟨0, ![]⟩
abbrev S256x98304 : Shape := ⟨2, ![256, 98304]⟩
abbrev S256 : Shape := ⟨1, ![256]⟩

abbrev nBuf : Space → Nat
  | .hbm => 43
  | .vmem => 0
  | .smem => 0
  | _ => 0

abbrev bufTy : (tb : Table) → Fin (tcTables nBuf tb) → BufTy
  | .hbm, ⟨0, _⟩ => ⟨S256x24x4096, .f32⟩
  | .hbm, ⟨1, _⟩ => ⟨S256x24x4096, .f32⟩
  | .hbm, ⟨2, _⟩ => ⟨S1, .f32⟩
  | .hbm, ⟨3, _⟩ => ⟨S_, .f32⟩
  | .hbm, ⟨4, _⟩ => ⟨S256x24x4096, .f32⟩
  | .hbm, ⟨5, _⟩ => ⟨S256x24x4096, .i1⟩
  | .hbm, ⟨6, _⟩ => ⟨S256x24x4096, .f32⟩
  | .hbm, ⟨7, _⟩ => ⟨S256x24x4096, .f32⟩
  | .hbm, ⟨8, _⟩ => ⟨S256x98304, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256x98304, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S256x24x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  bcast_S_S256x24x4096 : S_.BroadcastsInDim S256x24x4096 (![] : Fin 0 → Fin S256x24x4096.rank)
  shapeCasts_S256x24x4096_S256x98304 : S256x24x4096.ShapeCasts S256x98304
  shapeCasts_S1_S_ : S1.ShapeCasts S_
  reducesTo_S256x98304_S256_d1 : S256x98304.ReducesTo [1] S256
  h_S_ : 0 < S_.numel
  bcast_S_S256 : S_.BroadcastsInDim S256 (![] : Fin 0 → Fin S256.rank)
  reducesTo_S256_S_d0 : S256.ReducesTo [0] S_

variable [Facts₀]

class Facts : Prop extends Facts₀ where

variable [Facts]
-- ==== Proof.RowSum.lean ====
/-
  The masked sum of squares of one batch row, and the two ways the two programs list a row's positions.

  A row of the [256, 24, 4096] arrays has 24 · 4096 = 98304 positions (q, n). One program lists them flat,
  k = 4096 · q + n; the other in eight tiles of 512 lanes, n = 512 · j + l, summing over q inside a tile, then over
  the lanes l of the tile, then over the tiles j. Addition on the extended reals is commutative and associative
  (no cancellation, no distributivity is used), so every such listing gives the same sum: `sum_flat` and `sum_tiles`.
-/
import Idealize.ShloMosaic.Lib.ValueIdx
import Idealize.ShloMosaic.PureOps.Ideal.Laws

noncomputable section

open scoped BigOperators

namespace Cert.RowSum

open Idealize.ShloMosaic Idealize.ShloMosaic.ValueIdx

/-- The weight of an entry: 1 where the target `y` is not zero, 0 where it is. -/
def keep (y : EReal) : EReal := if y ≠ 0 then 1 else 0

/-- One entry's contribution: the square of the noise `e` weighted by `keep y`. -/
def term (e y : EReal) : EReal := (e * keep y) * (e * keep y)

/-- The shape of the two big arguments. -/
abbrev Arr : Shape := ⟨3, ![256, 24, 4096]⟩

/-- Row `b`'s masked sum of squares: over the 24 steps q and the 4096 nodes n. -/
def rowSum (E Y : Arr.Idx → EReal) (b : Fin 256) : EReal :=
  ∑ q : Fin 24, ∑ n : Fin 4096, term (E (ix3 b q n)) (Y (ix3 b q n))

/-- All 256 of them, as a rank-1 array. -/
def sumsq (E Y : Arr.Idx → EReal) : (⟨1, ![256]⟩ : Shape).Idx → EReal := fun i => rowSum E Y (i 0)

/-! ## A sum over `Fin (a * b)` is the double sum -/

/-- Position `k` of a list of `a * b` items is item `k % b` of group `k / b`. -/
theorem sum_fin_mul {M : Type*} [AddCommMonoid M] (a b : ℕ) (f : Fin (a * b) → M) :
    ∑ k, f k = ∑ i : Fin a, ∑ j : Fin b, f (finProdFinEquiv (i, j)) := by
  rw [← Equiv.sum_comp finProdFinEquiv f, Fintype.sum_prod_type]

/-! ## The flat listing -/

/-- The step of flat position `k`. -/
def stepOf (k : Fin 98304) : Fin 24 := ⟨k.val / 4096, by have := k.isLt; omega⟩
/-- The node of flat position `k`. -/
def nodeOf (k : Fin 98304) : Fin 4096 := ⟨k.val % 4096, by omega⟩

/-- Summing over the 98304 flat positions is summing over steps and nodes. -/
theorem sum_flat {M : Type*} [AddCommMonoid M] (g : Fin 24 → Fin 4096 → M) :
    ∑ k : Fin 98304, g (stepOf k) (nodeOf k) = ∑ q : Fin 24, ∑ n : Fin 4096, g q n := by
  rw [sum_fin_mul 24 4096 (fun k : Fin 98304 => g (stepOf k) (nodeOf k))]
  refine Finset.sum_congr rfl fun q _ => Finset.sum_congr rfl fun n _ => ?_
  have hq : stepOf (finProdFinEquiv (q, n)) = q := Fin.ext (by
    show (finProdFinEquiv (q, n) : Fin (24 * 4096)).val / 4096 = q.val
    rw [finProdFinEquiv_apply_val]; have := n.isLt; show (n.val + 4096 * q.val) / 4096 = q.val; omega)
  have hn : nodeOf (finProdFinEquiv (q, n)) = n := Fin.ext (by
    show (finProdFinEquiv (q, n) : Fin (24 * 4096)).val % 4096 = n.val
    rw [finProdFinEquiv_apply_val]; have := n.isLt; show (n.val + 4096 * q.val) % 4096 = n.val; omega)
  rw [hq, hn]

/-! ## The tiled listing -/

/-- Lane `l` of tile `j` is node `512 · j + l` (reduced mod 4096, so that it is a node for every natural `j`;
    for the eight tiles `j < 8` nothing is reduced). -/
def lane (j : ℕ) (l : Fin 512) : Fin 4096 := ⟨(512 * j + l.val) % 4096, Nat.mod_lt _ (by decide)⟩

/-- Summing tile by tile — inside a tile over the lanes, inside a lane over the steps — is summing over steps and
    nodes. -/
theorem sum_tiles {M : Type*} [AddCommMonoid M] (g : Fin 24 → Fin 4096 → M) :
    ∑ j : Fin 8, ∑ l : Fin 512, ∑ q : Fin 24, g q (lane j.val l) = ∑ q : Fin 24, ∑ n : Fin 4096, g q n := by
  have hr : ∀ q : Fin 24, ∑ n : Fin 4096, g q n = ∑ j : Fin 8, ∑ l : Fin 512, g q (lane j.val l) := fun q => by
    rw [sum_fin_mul 8 512 (fun n : Fin 4096 => g q n)]
    refine Finset.sum_congr rfl fun j _ => Finset.sum_congr rfl fun l _ => congrArg (g q) (Fin.ext ?_)
    show (finProdFinEquiv (j, l) : Fin (8 * 512)).val = (512 * j.val + l.val) % 4096
    rw [finProdFinEquiv_apply_val]; have := j.isLt; have := l.isLt; show l.val + 512 * j.val = _; omega
  calc ∑ j : Fin 8, ∑ l : Fin 512, ∑ q : Fin 24, g q (lane j.val l)
      = ∑ j : Fin 8, ∑ q : Fin 24, ∑ l : Fin 512, g q (lane j.val l) :=
        Finset.sum_congr rfl fun j _ => Finset.sum_comm
    _ = ∑ q : Fin 24, ∑ j : Fin 8, ∑ l : Fin 512, g q (lane j.val l) := Finset.sum_comm
    _ = ∑ q : Fin 24, ∑ n : Fin 4096, g q n := Finset.sum_congr rfl fun q _ => (hr q).symm

/-- The partial sums over the first tiles: tiles `0 … j`. -/
def upTo {M : Type*} [AddCommMonoid M] (tile : ℕ → M) (j : ℕ) : M := ∑ j' ∈ Finset.range (j + 1), tile j'

theorem upTo_zero {M : Type*} [AddCommMonoid M] (tile : ℕ → M) : upTo tile 0 = tile 0 := by
  unfold upTo; rw [Finset.sum_range_one]

theorem upTo_succ {M : Type*} [AddCommMonoid M] (tile : ℕ → M) (j : ℕ) : upTo tile (j + 1) = upTo tile j + tile (j + 1) := by
  unfold upTo; rw [Finset.sum_range_succ]

/-- After the eighth tile the partial sum is the sum over the eight tiles. -/
theorem upTo_seven {M : Type*} [AddCommMonoid M] (tile : ℕ → M) : upTo tile 7 = ∑ j : Fin 8, tile j.val := by
  unfold upTo; rw [Finset.sum_range]

/-- Row `b`'s contribution from tile `j`: over the tile's 512 lanes, and in each lane over the 24 steps. -/
def tileSum (E Y : Arr.Idx → EReal) (b : Fin 256) (j : ℕ) : EReal :=
  ∑ l : Fin 512, ∑ q : Fin 24, term (E (ix3 b q (lane j l))) (Y (ix3 b q (lane j l)))

/-- Accumulated over the eight tiles, the tile sums are the row's sum. -/
theorem upTo_tileSum (E Y : Arr.Idx → EReal) (b : Fin 256) : upTo (tileSum E Y b) 7 = rowSum E Y b := by
  rw [upTo_seven]
  exact sum_tiles fun q n => term (E (ix3 b q n)) (Y (ix3 b q n))

end Cert.RowSum

end
-- ==== Proof.Tail.lean ====
/-
  What both programs do with the 256 row sums and the scalar `sigma`: s = softplus(sigma), then the mean over the rows of
  0.5 · (rowsum / s + 98304 · (log 2π + log s)), computed as the programs compute it (the product with -0.5, the negation,
  the sum from 0, the division by 256). The two programs apply this ONE chain of host operations, literal for literal, to
  their row sums; it is kept as one function of the row sums and never opened.
-/
import Idealize.ShloMosaic.PureOps

noncomputable section

namespace Cert.RowSum

open Idealize.ShloMosaic

variable {F : FTy → Type} [FloatOps F]

/-- The 256 row sums' shape, `sigma`'s, and the scalar shape. -/
abbrev R256 : Shape := ⟨1, ![256]⟩
abbrev R1 : Shape := ⟨1, ![1]⟩
abbrev R0 : Shape := ⟨0, ![]⟩

/-- softplus in its overflow-safe form: max(x, 0) + log1p(exp(-|x - 0|)), with x + 0 where x - 0 is not a number. -/
def softplus (x : FVec F R0 .f32) : FVec F R0 .f32 :=
  select (cmpf .une (subf x (constant R0 .f32 0x00000000#32)) (subf x (constant R0 .f32 0x00000000#32)))
    (addf x (constant R0 .f32 0x00000000#32))
    (addf (maximumf x (constant R0 .f32 0x00000000#32))
      (Host.log1p (Host.exp (Host.negf (Host.absf (subf x (constant R0 .f32 0x00000000#32)))))))

/-- The mean negative log-likelihood from the row sums `ss` and `sigma`. -/
def tail (hb : R0.BroadcastsInDim R256 (![] : Fin 0 → Fin R256.rank)) (hr : R256.ReducesTo [0] R0) (h0 : 0 < R0.numel)
    (hc : R1.ShapeCasts R0) (ss : FVec F R256 .f32) (sg : FVec F R1 .f32) : FVec F R0 .f32 :=
  Host.divf
    (Host.reduceAdd
      (Host.negf
        (mulf (broadcastInDim R256 ![] hb (constant R0 .f32 0xBF000000#32))
          (addf (Host.divf ss (broadcastInDim R256 ![] hb (softplus (shapeCast R0 sg hc))))
            (broadcastInDim R256 ![] hb
              (mulf (constant R0 .f32 0x47C00000#32)
                (addf (id (Host.log (constant R0 .f32 0x40C90FDB#32))) (Host.log (softplus (shapeCast R0 sg hc)))))))))
      (constant R0 .f32 0x00000000#32) hr h0)
    (constant R0 .f32 0x43800000#32)

end Cert.RowSum

end
-- ==== Proof.RefSide.lean ====
/-
  The reference, read: its 256 row sums are `sumsq` of the two big arguments, and everything after them is the shared
  tail. A row sum of the reference is 0 + the sum over the 98304 flat positions k of the squared weighted entry at
  (row, k / 4096, k % 4096) — the reshape [256, 24, 4096] → [256, 98304] keeps the row-major position — and the flat
  listing is the listing by steps and nodes (`sum_flat`).
-/
import proofs.«108943_j85323820302377_2_alg».proof.Proof.Gen.ReferenceIdeal.Read
import proofs.«108943_j85323820302377_2_alg».proof.Proof.RowSum
import proofs.«108943_j85323820302377_2_alg».proof.Proof.Tail
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Cert.RowSum
open Idealize.ShloMosaic Idealize.ShloMosaic.ValueIdx

/-- Everything after the row sums is the shared tail (the same operations in the same order: by unfolding). -/
theorem result_eq_tail {F : FTy → Type} [FloatOps F] (x0 x1 : FVec F S256x24x4096 .f32) (x2 : FVec F S1 .f32) :
    val_main_v22 (F := F) x0 x1 x2
      = tail bcast_S_S256 reducesTo_S256_S_d0 h_S_ shapeCasts_S1_S_ (val_main_v10 (F := F) x0 x1) x2 := rfl

/-- The reference's weight — "not equal to 0.0", as an unsigned 1-bit integer made a float — is `keep`. -/
theorem weight_eq (y : EReal) :
    FloatOps.uitofp (F := Ideal) .f32 (FloatOps.cmpf (F := Ideal) (φ := .f32) .une y (FloatOps.ofBits .f32 0x00000000#32)) = keep y := by
  show (((Ideal.cmp .une y (Ideal.ofBits .f32 0x00000000#32)).toNat : ℝ) : EReal) = keep y
  rw [Ideal.ofBits_zero_f32]
  unfold keep Ideal.cmp
  by_cases h : y = 0
  · simp [h]
  · simp [h]

/-- Flat position `k` of row `b` of the reshaped array is entry (b, k / 4096, k % 4096). -/
theorem flat_idx (b : Fin 256) (k : Fin 98304) :
    idx_main_v4 (idx_main_v10 (ix1 b) k) = ix3 b (stepOf k) (nodeOf k) := funext fun a => Fin.ext (by
  have hk := k.isLt
  have hb := b.isLt
  match a with
  | ⟨0, _⟩ => show (b.val * 98304 + k.val) / 98304 = b.val; omega
  | ⟨1, _⟩ => show (b.val * 98304 + k.val) / 4096 % 24 = k.val / 4096; omega
  | ⟨2, _⟩ => show (b.val * 98304 + k.val) % 4096 = k.val % 4096; omega)

/-- The reference's row sums are `sumsq`. -/
theorem rowSums_eq (x0 x1 : FVec Ideal S256x24x4096 .f32) : val_main_v10 (F := Ideal) x0 x1 = sumsq x0 x1 := by
  funext i
  obtain ⟨b, rfl⟩ : ∃ b : Fin 256, i = ix1 b := ⟨i 0, eq_ix1 i⟩
  rw [val_main_v10_apply]
  have hterm : ∀ k : Fin 98304, val_main_v9 (F := Ideal) x0 x1 (idx_main_v10 (ix1 b) k)
      = term (x0 (ix3 b (stepOf k) (nodeOf k))) (x1 (ix3 b (stepOf k) (nodeOf k))) := fun k => by
    rw [val_main_v9_apply, val_main_v4_apply, flat_idx, val_main_v3_apply, val_main_v2_apply, val_main_v1_apply,
      val_main_v0_apply, val_main_cst_apply, weight_eq]
    rfl
  rw [Finset.sum_congr rfl fun k _ => hterm k, val_main_cst_1_apply]
  show Ideal.ofBits .f32 0x00000000#32 + _ = rowSum x0 x1 b
  rw [Ideal.ofBits_zero_f32, zero_add]
  exact sum_flat fun q n => term (x0 (ix3 b q n)) (x1 (ix3 b q n))

end Cert.ReferenceIdeal.RefSide

end
-- ==== Proof.Pieces.lean ====
/-
  What one run of the kernel body leaves behind, as values. The body has three cases by the position in the row of
  eight tiles: at the first tile it zeroes the accumulator and then adds the tile's partial sums to it; at a middle
  tile it adds them to what the tile before left; at the last tile it does the same and then copies the accumulator
  into the output block. So the accumulator ends at `k0_pay2 x0 x1 acc` — the body's one arithmetic term, of the two
  input blocks `x0`, `x1` and the accumulator `acc` it found (the zero block at the first tile) — and at the last
  tile the output block ends at the same value. For any float instance.
-/
import proofs.«108943_j85323820302377_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the accumulator ends at the tile's partial sums added to the zero block. -/
theorem scratch_first (c : Dev nD) (i : grid0.Coords) (arg2 : Memref sig .tc .vmem S128x24x512 .f32) (harg2 : arg2.IsWhole) (arg3 : Memref sig .tc .vmem S128x24x512 .f32) (harg3 : arg3.IsWhole) (arg4 : Memref sig .tc .vmem S1x128 .f32) (harg4 : arg4.IsWhole) (arg5 : Memref sig .tc .vmem S1x128 .f32) (harg5 : arg5.IsWhole) (hc0 : cond0_0 i) (hc1 : ¬cond0_1 i)
    (x0 : Vec F S128x24x512 .f32) (x1 : Vec F S128x24x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, View.ld_unit_zero (S := S128x24x512) hz3]

/-- Middle tile: the accumulator ends at the tile's partial sums added to what it held. -/
theorem scratch_middle (c : Dev nD) (i : grid0.Coords) (arg2 : Memref sig .tc .vmem S128x24x512 .f32) (harg2 : arg2.IsWhole) (arg3 : Memref sig .tc .vmem S128x24x512 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : ¬cond0_1 i)
    (x0 : Vec F S128x24x512 .f32) (x1 : Vec F S128x24x512 .f32) (xs0 : Vec F S1x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S128x24x512) hz3, View.ld_unit_zero (S := S1x128) hz2]

/-- Last tile: the accumulator likewise; -/
theorem scratch_last (c : Dev nD) (i : grid0.Coords) (arg2 : Memref sig .tc .vmem S128x24x512 .f32) (harg2 : arg2.IsWhole) (arg3 : Memref sig .tc .vmem S128x24x512 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 : Vec F S128x24x512 .f32) (x1 : Vec F S128x24x512 .f32) (xs0 : Vec F S1x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S128x24x512) hz3, View.ld_unit_zero (S := S1x128) hz2]

/-- and the output block is the accumulator read back after that store. -/
theorem out_last (c : Dev nD) (i : grid0.Coords) (arg2 : Memref sig .tc .vmem S128x24x512 .f32) (harg2 : arg2.IsWhole) (arg3 : Memref sig .tc .vmem S128x24x512 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 : Vec F S128x24x512 .f32) (x1 : Vec F S128x24x512 .f32) (xs0 : Vec F S1x128 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2, View.readCov_unit_zero (S := S1x128) _ hz2]
  simp only [View.readAt_eq_ld, harg2.read_unread, harg3.read_unread, harg5.read_unread,
    View.ld_unit_zero (S := S128x24x512) hz3, View.ld_unit_zero (S := S1x128) hz2]

end Cert.KernelIdeal.Pieces

end
-- ==== Proof.Payload.lean ====
/-
  The body's arithmetic at one row of the block, over the extended reals: with `acc` the accumulator it found and
  `x0`, `x1` the blocks of the noise and of the targets, row `r` of the [1, 128] result is

      acc r + ∑ over the 512 lanes l of ∑ over the 24 steps q of (x0 (r, q, l) · keep (x1 (r, q, l)))²

  — the two lane reductions are plain sums from 0, the [128] → [1, 128] cast keeps the position, and the weight the
  kernel computes ("ordered and not equal to 0.0" as a 1-bit integer, zero-extended, read signed, made a float) is `keep`.
-/
import proofs.«108943_j85323820302377_2_alg».proof.Proof.Gen.KernelIdeal.Skeleton
import proofs.«108943_j85323820302377_2_alg».proof.Proof.RowSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.RowSum
open Idealize.ShloMosaic Idealize.ShloMosaic.ValueIdx

/-- The kernel's weight is `keep`. -/
theorem weight_eq (y : EReal) :
    FloatOps.sitofp (F := Ideal) .f32
      ((FloatOps.cmpf (F := Ideal) (φ := .f32) .one y (Scalar.ofBits .f32 0x00000000#32)).setWidth 32) = keep y := by
  show ((((Ideal.cmp .one y (Ideal.ofBits .f32 0x00000000#32)).setWidth 32).toInt : ℝ) : EReal) = keep y
  rw [Ideal.ofBits_zero_f32]
  unfold keep Ideal.cmp
  by_cases h : y = 0
  · simp [h]
  · simp [h]

/-- The block the first tile stores into the accumulator is zero everywhere. -/
theorem zero_apply (j : S1x128.Idx) : k0_pay1 (F := Ideal) j = 0 := by
  unfold k0_pay1
  rw [shapeCast_self]
  exact Ideal.ofBits_zero_f32

/-- One squared weighted entry of the blocks, as the body computes it. -/
theorem entry_eq (x0 x1 : Vec Ideal S128x24x512 .f32) (j : S128x24x512.Idx) :
    (mulf (mulf x0 (sitofp .f32 (extui 32 (cmpf .one x1 (broadcast S128x24x512 (Scalar.ofBits (F := Ideal) .f32 0x00000000#32))) natLt_1_32)))
      (mulf x0 (sitofp .f32 (extui 32 (cmpf .one x1 (broadcast S128x24x512 (Scalar.ofBits (F := Ideal) .f32 0x00000000#32))) natLt_1_32))) : FVec Ideal S128x24x512 .f32) j
      = term (x0 j) (x1 j) := by
  show (x0 j * _) * (x0 j * _) = (x0 j * keep (x1 j)) * (x0 j * keep (x1 j))
  rw [← weight_eq (x1 j)]
  rfl

/-- Row `r` of what the body stores into the accumulator. -/
theorem acc_apply (x0 x1 : Vec Ideal S128x24x512 .f32) (acc : Vec Ideal S1x128 .f32) (r : Fin 128) :
    k0_pay2 x0 x1 acc (ix2 (0 : Fin 1) r)
      = acc (ix2 (0 : Fin 1) r) + ∑ l : Fin 512, ∑ q : Fin 24, term (x0 (ix3 r q l)) (x1 (ix3 r q l)) := by
  unfold k0_pay2
  rw [shapeCast_self]
  refine congrArg (acc (ix2 (0 : Fin 1) r) + ·) ?_
  refine (shapeCast_a_1a_apply _ shapeCasts_S128_S1x128 (0 : Fin 1) r).trans ?_
  refine (Ideal.multiReduction_add_single _ 0x00000000#32 reduces_S128x512_S128 (.inl rfl) rfl (ix1 r)).trans ?_
  refine Finset.sum_congr rfl fun l _ => ?_
  refine (Ideal.multiReduction_add_single _ 0x00000000#32 reduces_S128x24x512_S128x512 (.inl rfl) rfl _).trans ?_
  refine Finset.sum_congr rfl fun q _ => ?_
  refine (entry_eq x0 x1 _).trans ?_
  have hidx : reduces_S128x24x512_S128x512.lift (reduces_S128x512_S128.lift (ix1 r) l) q = ix3 r q l :=
    funext fun a => Fin.ext (by match a with | ⟨0, _⟩ => rfl | ⟨1, _⟩ => rfl | ⟨2, _⟩ => rfl)
  rw [hidx]
  rfl

end Cert.KernelIdeal.Payload

end
-- ==== Proof.Accum.lean ====
/-
  The accumulation over a row's eight tiles. The grid has 16 points: point t works on the batch rows
  128 · (t / 8) … 128 · (t / 8) + 127 and on tile t % 8 of their nodes. Row r of the input blocks at point t is batch
  row 128 · (t / 8) + r, lane l is node 512 · (t % 8) + l. By induction on the point, after point t row r of the
  accumulator holds the sum of that batch row's tile sums over the tiles 0 … t % 8 (the first tile of a row of tiles
  starts again from zero), and at the last tile (t % 8 = 7) the output block holds the same: the batch row's whole
  masked sum of squares.
-/
import proofs.«108943_j85323820302377_2_alg».proof.Proof.Gen.KernelIdeal.Frame
import proofs.«108943_j85323820302377_2_alg».proof.Proof.Pieces
import proofs.«108943_j85323820302377_2_alg».proof.Proof.Payload
import proofs.«108943_j85323820302377_2_alg».proof.Proof.RowSum
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx

namespace Cert.KernelIdeal.Accum

open Cert.KernelIdeal Cert.KernelIdeal.Gen Cert.RowSum

/-! ## What each point leaves, as the body's one arithmetic term (any float instance) -/

section AnyInstance

variable {F : FTy → Type} [FloatOps F]
variable (m : (ℓ : Loc nD τ sig) → Buf (Elt F) ℓ)

/-- At the first tile of a row of tiles the accumulator ends at the tile's sums added to the zero block. -/
theorem scratch_first (c : Dev nD) (t : Fin cfg0.N) (h0 : t.val % 8 = 0) (h1 : ¬t.val % 8 = 7) :
    (outsAt0 m c t.val t.isLt).2 = k0_pay2 (iblk m c 0 t) (iblk m c 1 t) (k0_pay1 (F := F)) := by
  rw [outsAt0_A m c t h0 h1]
  exact Pieces.scratch_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- At a middle tile, to what the point before left. -/
theorem scratch_middle (c : Dev nD) (t : Fin cfg0.N) (h0 : ¬t.val % 8 = 0) (h1 : ¬t.val % 8 = 7) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  exact Pieces.scratch_middle c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- At the last tile likewise; -/
theorem scratch_last (c : Dev nD) (t : Fin cfg0.N) (h0 : ¬t.val % 8 = 0) (h1 : t.val % 8 = 7) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1]
  exact Pieces.scratch_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and there the output block ends at the accumulator's new contents. -/
theorem out_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  exact (Pieces.out_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (Pieces.scratch_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

end AnyInstance

/-! ## The blocks, and the induction, over the extended reals -/

variable (m : (ℓ : Loc nD τ sig) → Buf (Elt Ideal) ℓ)

/-- Row `r` of the block of batch block `a` is batch row `128 · a + r` (reduced mod 256, so that it is a batch row
    for every natural `a`; for the two batch blocks `a < 2` nothing is reduced). -/
def rowOf (a : ℕ) (r : Fin 128) : Fin 256 := ⟨(128 * a + r.val) % 256, Nat.mod_lt _ (by decide)⟩

/-- The printed index maps over the grid: an input block at point `t` is block (t / 8, 0, t % 8). -/
theorem idx_in0 : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)
theorem idx_in1 : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)

/-- The noise's block at point `t`, entry (r, q, l), is the noise at (128 · (t / 8) + r, q, 512 · (t % 8) + l). -/
theorem blk0_apply (c : Dev nD) (t : Fin cfg0.N) (r : Fin 128) (q : Fin 24) (l : Fin 512) :
    (iblk m c 0 t : Vec Ideal S128x24x512 .f32) (ix3 r q l)
      = (V m c main_arg0 : Arr.Idx → EReal) (ix3 (rowOf (t.val / 8) r) q (lane (t.val % 8) l)) := by
  have hN : t.val < 16 := lt_of_lt_of_eq t.isLt (show cfg0.N = 16 from N_0)
  obtain ⟨h0, h1, h2⟩ := idx_in0 t
  unfold iblk
  rw [View.read_apply]
  show V m c main_arg0 _ = V m c main_arg0 _
  refine congrArg (V m c main_arg0) (funext fun a => Fin.ext ?_)
  have hr := r.isLt
  have hl := l.isLt
  match a with
  | ⟨0, _⟩ => show win0_0.index t 0 * 128 + 1 * r.val = (128 * (t.val / 8) + r.val) % 256; rw [h0]; omega
  | ⟨1, _⟩ => show win0_0.index t 1 * 24 + 1 * q.val = q.val; rw [h1]; omega
  | ⟨2, _⟩ => show win0_0.index t 2 * 512 + 1 * l.val = (512 * (t.val % 8) + l.val) % 4096; rw [h2]; omega

/-- The targets' block likewise. -/
theorem blk1_apply (c : Dev nD) (t : Fin cfg0.N) (r : Fin 128) (q : Fin 24) (l : Fin 512) :
    (iblk m c 1 t : Vec Ideal S128x24x512 .f32) (ix3 r q l)
      = (V m c main_arg1 : Arr.Idx → EReal) (ix3 (rowOf (t.val / 8) r) q (lane (t.val % 8) l)) := by
  have hN : t.val < 16 := lt_of_lt_of_eq t.isLt (show cfg0.N = 16 from N_0)
  obtain ⟨h0, h1, h2⟩ := idx_in1 t
  unfold iblk
  rw [View.read_apply]
  show V m c main_arg1 _ = V m c main_arg1 _
  refine congrArg (V m c main_arg1) (funext fun a => Fin.ext ?_)
  have hr := r.isLt
  have hl := l.isLt
  match a with
  | ⟨0, _⟩ => show win0_1.index t 0 * 128 + 1 * r.val = (128 * (t.val / 8) + r.val) % 256; rw [h0]; omega
  | ⟨1, _⟩ => show win0_1.index t 1 * 24 + 1 * q.val = q.val; rw [h1]; omega
  | ⟨2, _⟩ => show win0_1.index t 2 * 512 + 1 * l.val = (512 * (t.val % 8) + l.val) % 4096; rw [h2]; omega

/-- One point's step on row `r`: the accumulator's entry plus the batch row's tile sum. -/
theorem step_eq (c : Dev nD) (t : Fin cfg0.N) (acc : Vec Ideal S1x128 .f32) (r : Fin 128) :
    k0_pay2 (iblk m c 0 t) (iblk m c 1 t) acc (ix2 (0 : Fin 1) r)
      = acc (ix2 (0 : Fin 1) r)
        + tileSum (V m c main_arg0) (V m c main_arg1) (rowOf (t.val / 8) r) (t.val % 8) := by
  refine (Payload.acc_apply (iblk m c 0 t) (iblk m c 1 t) acc r).trans ?_
  refine congrArg (acc (ix2 (0 : Fin 1) r) + ·) ?_
  unfold tileSum
  exact Finset.sum_congr rfl fun l _ => Finset.sum_congr rfl fun q _ => by
    rw [blk0_apply m c t r q l, blk1_apply m c t r q l]

/-- THE INVARIANT: after point `n`, row `r` of the accumulator is the batch row's tile sums over the tiles 0 … n % 8. -/
theorem scratch_eq (c : Dev nD) : ∀ (n : ℕ) (hn : n < cfg0.N) (r : Fin 128),
    (outsAt0 m c n hn).2 (ix2 (0 : Fin 1) r)
      = upTo (tileSum (V m c main_arg0) (V m c main_arg1) (rowOf (n / 8) r)) (n % 8) := by
  have hN : cfg0.N = 16 := N_0
  intro n
  induction n with
  | zero =>
    intro hn r
    refine (congrFun (scratch_first m c ⟨0, hn⟩ (Nat.zero_mod 8) (by show ¬(0 : ℕ) % 8 = 7; decide)) (ix2 (0 : Fin 1) r)).trans ?_
    refine (step_eq m c ⟨0, hn⟩ _ r).trans ?_
    rw [Payload.zero_apply, zero_add]
    exact (upTo_zero _).symm
  | succ n ih =>
    intro hn r
    have hlt : n < cfg0.N := Nat.lt_of_succ_lt hn
    by_cases h0 : (n + 1) % 8 = 0
    · have h1 : ¬(n + 1) % 8 = 7 := by omega
      refine (congrFun (scratch_first m c ⟨n + 1, hn⟩ h0 h1) (ix2 (0 : Fin 1) r)).trans ?_
      refine (step_eq m c ⟨n + 1, hn⟩ _ r).trans ?_
      rw [Payload.zero_apply, zero_add]
      show tileSum _ _ (rowOf ((n + 1) / 8) r) ((n + 1) % 8) = upTo _ ((n + 1) % 8)
      rw [h0, upTo_zero]
    · have e1 : (n + 1) / 8 = n / 8 := by omega
      have e2 : (n + 1) % 8 = n % 8 + 1 := by omega
      by_cases h1 : (n + 1) % 8 = 7
      · refine (congrFun (scratch_last m c ⟨n + 1, hn⟩ h0 h1) (ix2 (0 : Fin 1) r)).trans ?_
        refine (step_eq m c ⟨n + 1, hn⟩ _ r).trans ?_
        show (outsAt0 m c n hlt).2 (ix2 (0 : Fin 1) r) + tileSum _ _ (rowOf ((n + 1) / 8) r) ((n + 1) % 8) = upTo _ ((n + 1) % 8)
        rw [ih hlt r, e1, e2, upTo_succ]
      · refine (congrFun (scratch_middle m c ⟨n + 1, hn⟩ h0 h1) (ix2 (0 : Fin 1) r)).trans ?_
        refine (step_eq m c ⟨n + 1, hn⟩ _ r).trans ?_
        show (outsAt0 m c n hlt).2 (ix2 (0 : Fin 1) r) + tileSum _ _ (rowOf ((n + 1) / 8) r) ((n + 1) % 8) = upTo _ ((n + 1) % 8)
        rw [ih hlt r, e1, e2, upTo_succ]

/-- So at a last tile, row `r` of the output block is the batch row's whole masked sum of squares. -/
theorem out_eq (c : Dev nD) (t : Fin cfg0.N) (h7 : t.val % 8 = 7) (r : Fin 128) :
    (outsAt0 m c t.val t.isLt).1 (ix2 (0 : Fin 1) r)
      = rowSum (V m c main_arg0) (V m c main_arg1) (rowOf (t.val / 8) r) := by
  have h0 : ¬t.val % 8 = 0 := by omega
  rw [out_last m c t h0 h7, scratch_eq m c t.val t.isLt r, h7]
  exact upTo_tileSum _ _ _

end Cert.KernelIdeal.Accum

end
-- ==== Proof.HostTail.lean ====
/-
  The kernel program's lines after the region, read: its result is the shared tail applied to the region's output
  array — the [1, 256] array of row sums, reshaped to [256] — and to `sigma`. The lines after the region read two
  buffers of the state the region leaves: the output array (at what the region's write-backs made it) and `sigma`
  (which the region does not touch). For any float instance.
-/
import proofs.«108943_j85323820302377_2_alg».proof.Proof.Gen.KernelIdeal.Frame
import proofs.«108943_j85323820302377_2_alg».proof.Proof.Tail
import Idealize.ShloMosaic.Lib.StableHlo.Run
import Idealize.ShloMosaic.Lib.Pipeline.Value

noncomputable section

open Idealize.ShloMosaic Idealize.ShloMosaic.TcCoe Idealize.SL.Sem Idealize.ShloMosaic.Tactic Idealize.ShloMosaic.StableHlo

namespace Cert.KernelIdeal.HostTail

open Cert.KernelIdeal Cert.KernelIdeal.Gen Cert.RowSum

variable {F : FTy → Type} [FloatOps F]
variable (m : (ℓ : Loc nD τ sig) → Buf (Elt F) ℓ)

/-- After the region the output array's buffer holds what the write-backs made it; -/
theorem out_read (c : Dev nD) :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- and `sigma`'s holds `sigma`. -/
theorem sigma_read (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The program's result is the shared tail of the reshaped output array and `sigma`. -/
theorem result_eq (c : Dev nD) :
    Pipeline.afterTail₀ cfgs (dats m) 0 (V0 m) [hostOps1, hostOps1_1, hostOps1_2] c main_v17
      = tail bcast_S_S256 reducesTo_S256_S_d0 h_S_ shapeCasts_S1_S_
          (shapeCast S256 ((dats m 0 c).arrAt 2 cfg0.N) shapeCasts_S1x256_S256) (m ((c : Thread nD τ).loc main_arg2)) := by
  unfold Pipeline.afterTail₀
  simp only [hostOps1, hostOps1_1, hostOps1_2, List.flatten_cons, List.flatten_nil, List.append_nil, List.cons_append,
    List.nil_append]
  after_results_simp
  rw [out_read m c, sigma_read m c]
  rfl

end Cert.KernelIdeal.HostTail

end
-- ==== Proof.Final.lean ====
/-
  From blocks to the array, and the kernel program's run read as a value. The output's [1, 256] array is written back
  in two [1, 128] blocks, at the two points that end a row of tiles (t % 8 = 7); block t / 8 holds the masked sums of
  squares of the batch rows 128 · (t / 8) … 128 · (t / 8) + 127 (the accumulation). The two blocks tile the array, so
  after the region it holds, at (0, b), batch row b's sum. Reshaped to [256] that is `sumsq` of the two big
  arguments, and the lines after the region apply the shared tail to it and to `sigma`.
-/
import proofs.«108943_j85323820302377_2_alg».proof.Proof.Gen.KernelIdeal.Frame
import proofs.«108943_j85323820302377_2_alg».proof.Proof.Accum
import proofs.«108943_j85323820302377_2_alg».proof.Proof.HostTail
import proofs.«108943_j85323820302377_2_alg».proof.Proof.RowSum
import proofs.«108943_j85323820302377_2_alg».proof.Proof.Tail
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.RowSum Cert.KernelIdeal.Accum

variable (m : (ℓ : Loc nD τ sig) → Buf (Elt Ideal) ℓ) (ρ : Dev nD → PrngReg)

/-- The output array after the region: at (0, b), batch row b's masked sum of squares. -/
abbrev rows (c : Dev nD) : Buf (Elt Ideal) ((c : Thread nD τ).loc main_v0) :=
  fun i => rowSum (V m c main_arg0) (V m c main_arg1) (i 1)

/-- The output's printed index map over the grid: at point `t` it is block (0, t / 8). -/
theorem idx_out : ∀ t : Fin cfg0.N, win0_2.index t 0 = 0 ∧ win0_2.index t 1 = t.val / 8 :=
  (by decide +kernel : ∀ t : Fin grid0.N, win0_2.index t 0 = 0 ∧ win0_2.index t 1 = t.val / 8)

/-- What a point that writes back writes: its block of `rows`. -/
theorem flushed_eq (c : Dev nD) (t : Fin cfg0.N) (hf : (cfg0.win 2).flush t = true) :
    (dats m 0 c).flushed 2 t = ((cfg0.win 2).blk t).view.read (Elt Ideal) (rows m c) := by
  have hN : t.val < 16 := lt_of_lt_of_eq t.isLt (show cfg0.N = 16 from N_0)
  have h7 : t.val % 8 = 7 := (flush0_2 t).mp hf
  obtain ⟨i0, i1⟩ := idx_out t
  show (cfg0.win 2).cut (grid0.coords t) ((dats m 0 c).after 2 t) = _
  rw [after0_2]
  funext j
  show (outsAt0 m c t.val t.isLt).1 j = rows m c (((cfg0.win 2).blk t).view.emb j)
  obtain ⟨u, r, rfl⟩ : ∃ (u : Fin 1) (r : Fin 128), j = ix2 u r := ⟨j 0, j 1, eq_ix2 j⟩
  obtain rfl : u = 0 := Subsingleton.elim _ _
  rw [out_eq m c t h7 r]
  show _ = rowSum _ _ ((((cfg0.win 2).blk t).view.emb (ix2 (0 : Fin 1) r)) 1)
  refine congrArg (rowSum _ _) (Fin.ext ?_)
  show (128 * (t.val / 8) + r.val) % 256 = win0_2.index t 1 * 128 + 1 * r.val
  have hr := r.isLt
  rw [i1]; omega

/-- An index of the array is in point `t`'s block iff each coordinate is in the block's range on its axis. -/
theorem mem_blk (t : Fin cfg0.N) (i : S1x256.Idx) :
    i ∈ ((cfg0.win 2).blk t).view.set
      ↔ ∀ a : Fin 2, win0_2.index t a * S1x128.size a ≤ (i a).val ∧ (i a).val < win0_2.index t a * S1x128.size a + S1x128.size a := by
  show i ∈ ((View.whole main_v0).slice (win0_2.rect t)).set ↔ _
  rw [View.set_slice_whole, Rect.mem_set_unit]
  exact Iff.rfl

/-- Every index of the array is in the block of the point that ends its batch block's row of tiles. -/
theorem cover (i : S1x256.Idx) : ∃ t : Fin cfg0.N, (cfg0.win 2).flush t = true ∧ i ∈ ((cfg0.win 2).blk t).view.set := by
  have hN : cfg0.N = 16 := N_0
  have hi0 : (i 0).val < 1 := (i 0).isLt
  have hi1 : (i 1).val < 256 := (i 1).isLt
  have hlt : 8 * ((i 1).val / 128) + 7 < cfg0.N := by omega
  obtain ⟨e0, e1⟩ := idx_out ⟨8 * ((i 1).val / 128) + 7, hlt⟩
  refine ⟨⟨8 * ((i 1).val / 128) + 7, hlt⟩, (flush0_2 _).mpr (by show (8 * ((i 1).val / 128) + 7) % 8 = 7; omega), ?_⟩
  rw [mem_blk]
  intro a
  match a with
  | ⟨0, _⟩ =>
    show win0_2.index ⟨8 * ((i 1).val / 128) + 7, hlt⟩ 0 * 1 ≤ (i 0).val ∧ (i 0).val < win0_2.index ⟨8 * ((i 1).val / 128) + 7, hlt⟩ 0 * 1 + 1
    rw [e0]; omega
  | ⟨1, _⟩ =>
    show win0_2.index ⟨8 * ((i 1).val / 128) + 7, hlt⟩ 1 * 128 ≤ (i 1).val ∧ (i 1).val < win0_2.index ⟨8 * ((i 1).val / 128) + 7, hlt⟩ 1 * 128 + 128
    rw [e1]; show (8 * ((i 1).val / 128) + 7) / 8 * 128 ≤ (i 1).val ∧ (i 1).val < (8 * ((i 1).val / 128) + 7) / 8 * 128 + 128; omega

/-- THE ARRAY after the region. -/
theorem final (c : Dev nD) : (dats m 0 c).arrAt 2 cfg0.N = rows m c :=
  (dats m 0 c).arrAt_eq_of_cover 2 (rows m c) (flushed_eq m c) cover

/-- Reshaped to [256] it is `sumsq` of the two big arguments. -/
theorem reshaped (c : Dev nD) :
    shapeCast S256 (rows m c) shapeCasts_S1x256_S256
      = sumsq (m ((c : Thread nD τ).loc main_arg0)) (m ((c : Thread nD τ).loc main_arg1)) := by
  funext i
  obtain ⟨b, rfl⟩ : ∃ b : Fin 256, i = ix1 b := ⟨i 0, eq_ix1 i⟩
  exact (shapeCast_1a_a_apply (rows m c) shapeCasts_S1x256_S256 b).trans rfl

/-- THE RUN, read: the program's result is the shared tail of `sumsq` of the two big arguments and of `sigma`; the
    arguments end unchanged. -/
theorem run : θ_run defs (onTc (τ := τ) (main (F := Ideal))) ⟨m, fun _ => 0, ρ⟩ fun r => ∀ c : Dev nD,
      r.2.mem ((c : Thread nD τ).loc main_v17)
        = tail (F := Ideal) bcast_S_S256 reducesTo_S256_S_d0 h_S_ shapeCasts_S1_S_
            (sumsq (m ((c : Thread nD τ).loc main_arg0)) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v17 (Pipeline.mem_restRefs_of main_v17 (by decide) (by decide))).trans
        ((HostTail.result_eq m c).trans (by rw [final m c, reshaped m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.lean ====
/-
  The masked Gaussian negative log-likelihood: mean over the 256 batch rows of
  0.5 · (S_b / s + 98304 · (log 2π + log s)), with S_b the sum over the row's 24 · 4096 entries of (eps · [y ≠ 0])² and
  s = softplus(sigma).

  The kernel program computes the S_b in a gridded kernel region — per batch block of 128 rows, eight tiles of 512 nodes, each
  tile summed over the steps and then over its lanes and added to an accumulator that the first tile zeroes and the
  last tile copies out — and everything else on the host; the reference computes S_b as one sum over a row reshaped to
  98304 positions, and then the same host operations. Over the extended reals both S_b are the same sum listed in two
  orders (addition is commutative and associative there; nothing else about it is used, so the finiteness of the inputs
  is never called on), the two weights [y ≠ 0] are the same 0 / 1, and what follows the S_b is one chain of operations,
  literal for literal, carried as one function (`tail`) that is never opened.

  The modules: RowSum (the row's sum and the two listings), Tail (the shared chain), RefSide (the reference read),
  Pieces / Payload / Accum / Final (the kernel's body, its arithmetic at an index, the accumulation over the grid, the
  output array and the run), HostTail (the kernel program's lines after the region).
-/
import proofs.«108943_j85323820302377_2_alg».proof.Defs
import proofs.«108943_j85323820302377_2_alg».proof.Proof.Gen.Kernel
import proofs.«108943_j85323820302377_2_alg».proof.Proof.Gen.Kernel.Frame
import proofs.«108943_j85323820302377_2_alg».proof.Proof.Gen.KernelIdeal
import proofs.«108943_j85323820302377_2_alg».proof.Proof.Gen.KernelIdeal.Frame
import proofs.«108943_j85323820302377_2_alg».proof.Proof.Gen.ReferenceIdeal
import proofs.«108943_j85323820302377_2_alg».proof.Proof.Gen.ReferenceIdeal.Run
import proofs.«108943_j85323820302377_2_alg».proof.Proof.Gen.ReferenceIdeal.Read
import proofs.«108943_j85323820302377_2_alg».proof.Proof.Gen.Pre_finite_inputs
import proofs.«108943_j85323820302377_2_alg».proof.Proof.RefSide
import proofs.«108943_j85323820302377_2_alg».proof.Proof.Final
import Idealize.ShloMosaic.Adequacy
import Idealize.ShloMosaic.Init

noncomputable section

namespace Cert.Proof

open Idealize.ShloMosaic Idealize.ShloMosaic.TcCoe Idealize.SL.Sem Cert.RowSum

/-- The three programs run, fault nowhere, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals the two programs end at the same number: the shared tail of the same row sums of
    arguments that agree, and of the same `sigma`. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v22_eq,
    Cert.ReferenceIdeal.RefSide.result_eq_tail, Cert.ReferenceIdeal.RefSide.rowSums_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
